-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S6x2048x2048 : Shape := ⟨3, ![6, 2048, 2048]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S6x2048x2048 : S_.BroadcastsInDim S6x2048x2048 (![] : Fin 0 → Fin S6x2048x2048.rank)
  reducesTo_S6x2048x2048_S_d0_1_2 : S6x2048x2048.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4x2048x2048 .f32) (main_arg1 : FVec F S6x2048x2048 .f32) (main_arg2 : FVec F S6x2048x2048 .f32) (main_arg3 : FVec F S2048x2048 .f32) (main_arg4 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S6x2048x2048 .f32 := Host.absf main_arg1
  let main_cst_0 : FVec F S_ .f32 := constant S_ .f32 0x7F800000#32
  let main_v5 : FVec F S6x2048x2048 .f32 := broadcastInDim S6x2048x2048 ![] bcast_S_S6x2048x2048 main_cst_0
  let main_v6 : IVec S6x2048x2048 1 := cmpf .olt main_v4 main_v5
  let main_c_1 : IVec S_ 1 := constantI S_ 1 1#1
  let main_v7 : IVec S_ 1 := (fun x v => Host.reduce IntOp.andi x v reducesTo_S6x2048x2048_S_d0_1_2 h_S_) main_v6 main_c_1
  let main_v8 : IVec S_ 1 := andi main_v3 main_v7
  let main_v9 : FVec F S6x2048x2048 .f32 := Host.absf main_arg2
  let main_cst_2 : FVec F S_ .f32 := constant S_ .f32 0x7F800000#32
  let main_v10 : FVec F S6x2048x2048 .f32 := broadcastInDim S6x2048x2048 ![] bcast_S_S6x2048x2048 main_cst_2
  let main_v11 : IVec S6x2048x2048 1 := cmpf .olt main_v9 main_v10
  let main_c_3 : IVec S_ 1 := constantI S_ 1 1#1
  let main_v12 : IVec S_ 1 := (fun x v => Host.reduce IntOp.andi x v reducesTo_S6x2048x2048_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S4x2048x2048 : Shape := ⟨3, ![4, 2048, 2048]⟩
abbrev S6x2048x2048 : Shape := ⟨3, ![6, 2048, 2048]⟩
abbrev S2048x2048 : Shape := ⟨2, ![2048, 2048]⟩
abbrev S2048 : Shape := ⟨1, ![2048]⟩
abbrev S8192x2048 : Shape := ⟨2, ![8192, 2048]⟩
abbrev S1024x2048 : Shape := ⟨2, ![1024, 2048]⟩
abbrev S6x256x2048 : Shape := ⟨3, ![6, 256, 2048]⟩
abbrev S1024x256 : Shape := ⟨2, ![1024, 256]⟩
abbrev S1x256x2048 : Shape := ⟨3, ![1, 256, 2048]⟩
abbrev S256x2048 : Shape := ⟨2, ![256, 2048]⟩
abbrev S1x2048 : Shape := ⟨2, ![1, 2048]⟩
abbrev S512x2048 : Shape := ⟨2, ![512, 2048]⟩
abbrev S1x512 : Shape := ⟨2, ![1, 512]⟩
abbrev S512x512 : Shape := ⟨2, ![512, 512]⟩

abbrev nBuf : Space → Nat
  | .hbm => 14
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S6x2048x2048, .f32⟩
  | .hbm, ⟨2, _⟩ => ⟨S6x2048x2048, .f32⟩
  | .hbm, ⟨3, _⟩ => ⟨S2048x2048, .f32⟩
  | .hbm, ⟨4, _⟩ => ⟨S2048, .f32⟩
  | .hbm, ⟨5, _⟩ => ⟨S8192x2048, .f32⟩
  | .hbm, ⟨6, _⟩ => ⟨S8192x2048, .bf16⟩
  | .hbm, ⟨7, _⟩ => ⟨S6x2048x2048, .f32⟩
  | .hbm, ⟨8, _⟩ => ⟨S6x2048x2048, .bf16⟩
  | .hbm, ⟨9, _⟩ => ⟨S8192x2048, .bf16⟩
  | .hbm, ⟨10, _⟩ => ⟨S2048x2048, .bf16⟩
  | .hbm, ⟨11, _⟩ => ⟨S1x2048, .f32⟩
  | .hbm, ⟨12, _⟩ => ⟨S8192x2048, .f32⟩
  | .hbm, ⟨13, _⟩ => ⟨S4x2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S6x256x2048, .bf16⟩
  | .local _ .vmem, ⟨3, _⟩ => ⟨S6x256x2048, .bf16⟩
  | .local _ .vmem, ⟨4, _⟩ => ⟨S1024x256, .bf16⟩
  | .local _ .vmem, ⟨5, _⟩ => ⟨S1024x256, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S6x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x2048_S8192x2048 : S4x2048x2048.ShapeCasts S8192x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S6x256x2048_S1x256x2048_0_0_0 : ∀ a, (![0, 0, 0] : Fin 3 → Nat) a + S1x256x2048.size a ≤ S6x256x2048.size a
  h_S1x256x2048 : 0 < S1x256x2048.numel
  shapeCasts_S1x256x2048_S256x2048 : S1x256x2048.ShapeCasts S256x2048
  inb_S6x256x2048_S1x256x2048_1_0_0 : ∀ a, (![1, 0, 0] : Fin 3 → Nat) a + S1x256x2048.size a ≤ S6x256x2048.size a
  inb_S6x256x2048_S1x256x2048_2_0_0 : ∀ a, (![2, 0, 0] : Fin 3 → Nat) a + S1x256x2048.size a ≤ S6x256x2048.size a
  inb_S6x256x2048_S1x256x2048_3_0_0 : ∀ a, (![3, 0, 0] : Fin 3 → Nat) a + S1x256x2048.size a ≤ S6x256x2048.size a
  inb_S6x256x2048_S1x256x2048_4_0_0 : ∀ a, (![4, 0, 0] : Fin 3 → Nat) a + S1x256x2048.size a ≤ S6x256x2048.size a
  inb_S6x256x2048_S1x256x2048_5_0_0 : ∀ a, (![5, 0, 0] : Fin 3 → Nat) a + S1x256x2048.size a ≤ S6x256x2048.size a
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S8192x2048_S4x2048x2048 : S8192x2048.ShapeCasts S4x2048x2048
  dot_S1024x2048_S256x2048_S1024x256_1_1_0_0_n_n_wf : DotDims.WF S1024x2048 S256x2048 S1024x256 [1] [1] [0] [0] [] []
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x256x2048.size a ≤ S6x2048x2048.size a
  hwx0_1 : ∀ i : grid0.Coords, EltTy.bits .bf16 = 32 ∨ (Rect.block (s := S6x2048x2048) S6x256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x2048.size a
  hwx0_2 : ∀ i : grid0.Coords, EltTy.bits .bf16 = 32 ∨ (Rect.block (s := S8192x2048) S1024x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .bf16 = 32 ∨ (Rect.block (s := S8192x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S2048x2048.size a
  hwx1_1 : ∀ i : grid1.Coords, EltTy.bits .bf16 = 32 ∨ (Rect.block (s := S2048x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x2048.size a
  hwx1_3 : ∀ i : grid1.Coords, EltTy.bits .f32 = 32 ∨ (Rect.block (s := S8192x2048) S512x512.size (cc1_transform_3 i) (hinb1_3 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S6x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S6x2048x2048 : Shape := ⟨3, ![6, 2048, 2048]⟩
abbrev S2048x2048 : Shape := ⟨2, ![2048, 2048]⟩
abbrev S2048 : Shape := ⟨1, ![2048]⟩
abbrev S8192x2048 : Shape := ⟨2, ![8192, 2048]⟩
abbrev S1x2048x2048 : Shape := ⟨3, ![1, 2048, 2048]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S6x2048x2048, .f32⟩
  | .hbm, ⟨2, _⟩ => ⟨S6x2048x2048, .f32⟩
  | .hbm, ⟨3, _⟩ => ⟨S2048x2048, .f32⟩
  | .hbm, ⟨4, _⟩ => ⟨S2048, .f32⟩
  | .hbm, ⟨5, _⟩ => ⟨S8192x2048, .f32⟩
  | .hbm, ⟨6, _⟩ => ⟨S6x2048x2048, .f32⟩
  | .hbm, ⟨7, _⟩ => ⟨S1x2048x2048, .f32⟩
  | .hbm, ⟨8, _⟩ => ⟨S2048x2048, .f32⟩
  | .hbm, ⟨9, _⟩ => ⟨S2048x2048, .f32⟩
  | .hbm, ⟨10, _⟩ => ⟨S8192x2048, .f32⟩
  | .hbm, ⟨11, _⟩ => ⟨S1x2048x2048, .f32⟩
  | .hbm, ⟨12, _⟩ => ⟨S2048x2048, .f32⟩
  | .hbm, ⟨13, _⟩ => ⟨S2048x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S1x2048x2048, .f32⟩
  | .hbm, ⟨18, _⟩ => ⟨S2048x2048, .f32⟩
  | .hbm, ⟨19, _⟩ => ⟨S2048x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S1x2048x2048, .f32⟩
  | .hbm, ⟨24, _⟩ => ⟨S2048x2048, .f32⟩
  | .hbm, ⟨25, _⟩ => ⟨S2048x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S1x2048x2048, .f32⟩
  | .hbm, ⟨30, _⟩ => ⟨S2048x2048, .f32⟩
  | .hbm, ⟨31, _⟩ => ⟨S2048x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S1x2048x2048, .f32⟩
  | .hbm, ⟨36, _⟩ => ⟨S2048x2048, .f32⟩
  | .hbm, ⟨37, _⟩ => ⟨S2048x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S2048x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩

abbrev nD : Nat := 1
abbrev τ : Topo := Topo.v7x

variable {F : FTy → Type} [FloatOps F]

class Facts₀ : Prop where
  shapeCasts_S4x2048x2048_S8192x2048 : S4x2048x2048.ShapeCasts S8192x2048
  slices_S6x2048x2048_S1x2048x2048_0_0_0 : S6x2048x2048.Slices ![0, 0, 0] S1x2048x2048
  shapeCasts_S1x2048x2048_S2048x2048 : S1x2048x2048.ShapeCasts S2048x2048
  transposes_S2048x2048_S2048x2048_1_0 : S2048x2048.Transposes [1, 0] S2048x2048
  slices_S6x2048x2048_S1x2048x2048_1_0_0 : S6x2048x2048.Slices ![1, 0, 0] S1x2048x2048
  slices_S6x2048x2048_S1x2048x2048_2_0_0 : S6x2048x2048.Slices ![2, 0, 0] S1x2048x2048
  slices_S6x2048x2048_S1x2048x2048_3_0_0 : S6x2048x2048.Slices ![3, 0, 0] S1x2048x2048
  slices_S6x2048x2048_S1x2048x2048_4_0_0 : S6x2048x2048.Slices ![4, 0, 0] S1x2048x2048
  slices_S6x2048x2048_S1x2048x2048_5_0_0 : S6x2048x2048.Slices ![5, 0, 0] S1x2048x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  shapeCasts_S8192x2048_S4x2048x2048 : S8192x2048.ShapeCasts S4x2048x2048
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
/-
  The function both programs compute, on the extended reals.

  With `Z : [N, K]` (the flattened input), six factor matrices `W i : [R, K]` stacked as `W : [6, R, K]`, a
  projection `C : [O, R]` and a bias row `b : [1, O]`:

    a i (n, r) = Σ_k Z[n, k] · W[i, r, k]                      (row n of Z against row r of factor i)
    c 0 = a 0,   c i = a i · c (i-1) + c (i-1)   (i = 1 … 5)     (the multiplicative chain)
    first (n, r)  = c 5 (n, r)
    second (n, o) = Σ_r first[n, r] · C[o, r] + b[0, o]

  Everything is stated over abstract extents, so that the same two functions describe a whole array and one block of it:
  an entry of `first` depends only on row `n` of `Z` and on rows `r` of the factors, an entry of `second` only on row `n`
  of its left operand, row `o` of `C` and column `o` of the bias (`first_congr`, `second_congr`).
-/
import Idealize.ShloMosaic.Lib.ValueIdx
import Idealize.ShloMosaic.PureOps.Ideal

noncomputable section

namespace Cert.Spec

open Idealize.ShloMosaic Idealize.ShloMosaic.ValueIdx

/-- One link of the chain: `a · c + c`. -/
def link (a c : EReal) : EReal := a * c + c

/-- The chain over six products, the first one its start. -/
def chain6 (a : Fin 6 → EReal) : EReal :=
  link (a 5) (link (a 4) (link (a 3) (link (a 2) (link (a 1) (a 0)))))

variable {N R K O : Nat}

/-- Row `n` of `Z` against row `r` of factor `i`. -/
def rowDot (Z : (⟨2, ![N, K]⟩ : Shape).Idx → EReal) (W : (⟨3, ![6, R, K]⟩ : Shape).Idx → EReal)
    (n : Fin N) (r : Fin R) (i : Fin 6) : EReal :=
  ∑ k : Fin K, Z (ix2 n k) * W (ix3 i r k)

/-- The chained products, entry by entry. -/
def first (Z : (⟨2, ![N, K]⟩ : Shape).Idx → EReal) (W : (⟨3, ![6, R, K]⟩ : Shape).Idx → EReal) :
    (⟨2, ![N, R]⟩ : Shape).Idx → EReal :=
  fun j => chain6 (rowDot Z W (j 0) (j 1))

/-- The projection with its bias row, entry by entry. -/
def second (X : (⟨2, ![N, K]⟩ : Shape).Idx → EReal) (C : (⟨2, ![O, K]⟩ : Shape).Idx → EReal)
    (b : (⟨2, ![1, O]⟩ : Shape).Idx → EReal) : (⟨2, ![N, O]⟩ : Shape).Idx → EReal :=
  fun j => (∑ k : Fin K, X (ix2 (j 0) k) * C (ix2 (j 1) k)) + b (ix2 (0 : Fin 1) (j 1))

/-- A vector as a one-row matrix. -/
def asRow (v : (⟨1, ![O]⟩ : Shape).Idx → EReal) : (⟨2, ![1, O]⟩ : Shape).Idx → EReal :=
  fun j => v (ix1 (j 1))

theorem first_apply (Z : (⟨2, ![N, K]⟩ : Shape).Idx → EReal) (W : (⟨3, ![6, R, K]⟩ : Shape).Idx → EReal)
    (n : Fin N) (r : Fin R) : first Z W (ix2 n r) = chain6 (fun i => ∑ k : Fin K, Z (ix2 n k) * W (ix3 i r k)) := rfl

theorem second_apply (X : (⟨2, ![N, K]⟩ : Shape).Idx → EReal) (C : (⟨2, ![O, K]⟩ : Shape).Idx → EReal)
    (b : (⟨2, ![1, O]⟩ : Shape).Idx → EReal) (n : Fin N) (o : Fin O) :
    second X C b (ix2 n o) = (∑ k : Fin K, X (ix2 n k) * C (ix2 o k)) + b (ix2 (0 : Fin 1) o) := rfl

/-- An entry of `first` is determined by one row of `Z` and one row of each factor. -/
theorem first_congr {N' R' : Nat} (Z : (⟨2, ![N, K]⟩ : Shape).Idx → EReal) (W : (⟨3, ![6, R, K]⟩ : Shape).Idx → EReal)
    (Z' : (⟨2, ![N', K]⟩ : Shape).Idx → EReal) (W' : (⟨3, ![6, R', K]⟩ : Shape).Idx → EReal)
    (n : Fin N) (r : Fin R) (n' : Fin N') (r' : Fin R')
    (hZ : ∀ k : Fin K, Z (ix2 n k) = Z' (ix2 n' k)) (hW : ∀ (i : Fin 6) (k : Fin K), W (ix3 i r k) = W' (ix3 i r' k)) :
    first Z W (ix2 n r) = first Z' W' (ix2 n' r') := by
  rw [first_apply, first_apply]
  exact congrArg chain6 (funext fun i => Finset.sum_congr rfl fun k _ => by rw [hZ k, hW i k])

/-- An entry of `second` is determined by one row of each matrix and one entry of the bias row. -/
theorem second_congr {N' O' : Nat} (X : (⟨2, ![N, K]⟩ : Shape).Idx → EReal) (C : (⟨2, ![O, K]⟩ : Shape).Idx → EReal)
    (b : (⟨2, ![1, O]⟩ : Shape).Idx → EReal)
    (X' : (⟨2, ![N', K]⟩ : Shape).Idx → EReal) (C' : (⟨2, ![O', K]⟩ : Shape).Idx → EReal)
    (b' : (⟨2, ![1, O']⟩ : Shape).Idx → EReal)
    (n : Fin N) (o : Fin O) (n' : Fin N') (o' : Fin O')
    (hX : ∀ k : Fin K, X (ix2 n k) = X' (ix2 n' k)) (hC : ∀ k : Fin K, C (ix2 o k) = C' (ix2 o' k))
    (hb : b (ix2 (0 : Fin 1) o) = b' (ix2 (0 : Fin 1) o')) :
    second X C b (ix2 n o) = second X' C' b' (ix2 n' o') := by
  rw [second_apply, second_apply, hb]
  exact congrArg (· + b' (ix2 (0 : Fin 1) o')) (Finset.sum_congr rfl fun k _ => by rw [hX k, hC k])

end Cert.Spec

end
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.Body0.lean ====
/-
  What one grid point of the first pallas_call leaves in its output block.

  The body reads a [1024, 2048] block of the flattened input and a [6, 256, 2048] block of the six factors (rows of each
  factor side by side), forms the six products "row of the input against row of a factor", chains them
  (`a · c + c`) and stores the result, rounded to bf16 — no change on the extended reals. So the block stored is
  `Spec.first` of the two input blocks.
-/
import proofs.«132809_j32882269618787_2_alg».proof.Proof.Gen.KernelIdeal.Frame
import proofs.«132809_j32882269618787_2_alg».proof.Proof.Spec
import proofs.«132809_j32882269618787_2_alg».proof.Proof.LibMatmulNT
import Idealize.ShloMosaic.Lib.Pipeline.Value
import Idealize.ShloMosaic.Lib.ValueLayout

noncomputable section

namespace Cert.KernelIdeal.Body0

open Cert.KernelIdeal Cert.KernelIdeal.Gen Idealize.ShloMosaic Idealize.ShloMosaic.ValueIdx

theorem hz2 : (![0, 0] : Fin 2 → Nat) = fun _ => 0 := funext fun a => by fin_cases a <;> rfl

/-- One product of the body at `(p, q)`: row `p` of the input block against row `q` of the factor loaded (a
    [1, 256, 2048] slab with its unit axis dropped). -/
theorem product_apply (x0 : FVec Ideal S1024x2048 .bf16) (w : FVec Ideal S1x256x2048 .bf16) (p : Fin 1024) (q : Fin 256) :
    matmul dot_S1024x2048_S256x2048_S1024x256_1_1_0_0_n_n none x0
        (shapeCast S256x2048 w shapeCasts_S1x256x2048_S256x2048) (constant S1024x256 .f32 0x00000000#32) (ix2 p q)
      = ∑ k : Fin 2048, x0 (ix2 p k) * w (ix3 (0 : Fin 1) q k) := by
  refine (Cert.LibMatmulNT.matmul_nt_apply dot_S1024x2048_S256x2048_S1024x256_1_1_0_0_n_n rfl rfl rfl rfl rfl rfl none
    x0 (shapeCast S256x2048 w shapeCasts_S1x256x2048_S256x2048) p q).trans ?_
  refine Finset.sum_congr rfl fun k _ => ?_
  rw [shapeCast_1ab_ab_apply]

/-- The payload at `(p, q)`: the chain over the six products. -/
theorem pay_apply (x0 : FVec Ideal S1024x2048 .bf16) (w0 w1 w2 w3 w4 w5 : FVec Ideal S1x256x2048 .bf16)
    (p : Fin 1024) (q : Fin 256) :
    k0_pay1 (F := Ideal) x0 w0 w1 w2 w3 w4 w5 (ix2 p q)
      = Spec.link (∑ k : Fin 2048, x0 (ix2 p k) * w5 (ix3 (0 : Fin 1) q k))
        (Spec.link (∑ k : Fin 2048, x0 (ix2 p k) * w4 (ix3 (0 : Fin 1) q k))
        (Spec.link (∑ k : Fin 2048, x0 (ix2 p k) * w3 (ix3 (0 : Fin 1) q k))
        (Spec.link (∑ k : Fin 2048, x0 (ix2 p k) * w2 (ix3 (0 : Fin 1) q k))
        (Spec.link (∑ k : Fin 2048, x0 (ix2 p k) * w1 (ix3 (0 : Fin 1) q k))
          (∑ k : Fin 2048, x0 (ix2 p k) * w0 (ix3 (0 : Fin 1) q k)))))) := by
  unfold k0_pay1
  simp only [shapeCast_self, truncf_apply, addf_apply, mulf_apply, product_apply, Spec.link]

/-- A factor's slab: the [1, 256, 2048] load at offset `(i, 0, 0)` of the factors' block reads factor `i`. -/
theorem slab_apply (x1 : Vec Ideal S6x256x2048 .bf16) (i : Fin 6) (off : Fin 3 → Nat) (hoff : off = ![i.val, 0, 0])
    (inb : ∀ a, off a + S1x256x2048.size a ≤ S6x256x2048.size a) (q : Fin 256) (k : Fin 2048) :
    View.ld x1 (Rect.unit (s := S6x256x2048) off S1x256x2048.size inb) (ix3 (0 : Fin 1) q k) = x1 (ix3 i q k) := by
  subst hoff
  refine congrArg x1 (funext fun a => Fin.ext ?_)
  match a with
  | ⟨0, _⟩ => show i.val + 1 * 0 = i.val; omega
  | ⟨1, _⟩ => show 0 + 1 * q.val = q.val; omega
  | ⟨2, _⟩ => show 0 + 1 * k.val = k.val; omega

/-- THE BLOCK STORED: `Spec.first` of the input block and the factors' block. -/
theorem out_eq (x0 : Vec Ideal S1024x2048 .bf16) (x1 : Vec Ideal S6x256x2048 .bf16) :
    out0_2 x0 x1 = Spec.first x0 x1 := by
  funext y
  obtain ⟨p, q, rfl⟩ : ∃ (p : Fin 1024) (q : Fin 256), y = ix2 p q := ⟨y 0, y 1, eq_ix2 y⟩
  unfold out0_2
  rw [View.canon_unit_zero hz2, View.ld_unit_zero (S := S1024x2048) hz2, pay_apply, Spec.first_apply]
  unfold Spec.chain6
  have s0 := fun k => slab_apply x1 0 ![0, 0, 0] rfl inb_S6x256x2048_S1x256x2048_0_0_0 q k
  have s1 := fun k => slab_apply x1 1 ![1, 0, 0] rfl inb_S6x256x2048_S1x256x2048_1_0_0 q k
  have s2 := fun k => slab_apply x1 2 ![2, 0, 0] rfl inb_S6x256x2048_S1x256x2048_2_0_0 q k
  have s3 := fun k => slab_apply x1 3 ![3, 0, 0] rfl inb_S6x256x2048_S1x256x2048_3_0_0 q k
  have s4 := fun k => slab_apply x1 4 ![4, 0, 0] rfl inb_S6x256x2048_S1x256x2048_4_0_0 q k
  have s5 := fun k => slab_apply x1 5 ![5, 0, 0] rfl inb_S6x256x2048_S1x256x2048_5_0_0 q k
  simp only [s0, s1, s2, s3, s4, s5]

end Cert.KernelIdeal.Body0

end
-- ==== Proof.Region0.lean ====
/-
  The first pallas_call's result array, as one function of the arrays it finds.

  Grid point `t = (j, i)` (8 × 8 points) reads rows `1024 i …` of the flattened input and rows `256 j …` of each of the six
  factors, and writes block `(i, j)` of the result. A block of `Spec.first` depends only on those rows, so every block
  written is the matching block of `Spec.first` of the WHOLE arrays, and the 64 blocks tile the [8192, 2048] result.
-/
import proofs.«132809_j32882269618787_2_alg».proof.Proof.Body0

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The result array the region leaves: `Spec.first` of the two arrays as the region finds them. -/
def G (c : Dev nD) : S8192x2048.Idx → EReal :=
  Spec.first (V c main_v1 : S8192x2048.Idx → EReal) (V c main_v3 : S6x2048x2048.Idx → EReal)

/-- The index maps over the grid: the input's row block is the result's row block, the factors' row block is the result's
    column block, every other block index is zero. -/
theorem idx_facts : ∀ t : Fin cfg0.N,
    win0_0.index t (0 : Fin 2) = win0_2.index t (0 : Fin 2) ∧ win0_0.index t (1 : Fin 2) = 0
    ∧ win0_1.index t (0 : Fin 3) = 0 ∧ win0_1.index t (1 : Fin 3) = win0_2.index t (1 : Fin 2)
    ∧ win0_1.index t (2 : Fin 3) = 0 :=
  (by decide +kernel : ∀ t : Fin grid0.N, _)

/-- Every block of the result is some point's. -/
theorem idx_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- WHAT POINT `t` WRITES BACK is block `t` of `G`. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2, Body0.out_eq]
  obtain ⟨e0, e1, e2, e3, e4⟩ := idx_facts t
  funext y
  obtain ⟨p, q, rfl⟩ : ∃ (p : Fin 1024) (q : Fin 256), y = ix2 p q := ⟨y 0, y 1, eq_ix2 y⟩
  obtain ⟨P, Q, hPQ⟩ : ∃ (P : Fin 8192) (Q : Fin 2048), ((cfg0.win 2).blk t).view.emb (ix2 p q) = ix2 P Q := ⟨_, _, eq_ix2 _⟩
  have hP : win0_2.index t (0 : Fin 2) * 1024 + 1 * p.val = P.val := congrArg (fun i : S8192x2048.Idx => (i 0).val) hPQ
  have hQ : win0_2.index t (1 : Fin 2) * 256 + 1 * q.val = Q.val := congrArg (fun i : S8192x2048.Idx => (i 1).val) hPQ
  show Spec.first (iblk0 V c 0 t) (iblk0 V c 1 t) (ix2 p q) = G V c (((cfg0.win 2).blk t).view.emb (ix2 p q))
  rw [hPQ]
  unfold G
  refine Spec.first_congr _ _ _ _ p q P Q (fun k => ?_) (fun i k => ?_)
  · show V c main_v1 (((cfg0.win 0).blk t).view.emb (ix2 p k)) = V c main_v1 (ix2 P k)
    refine congrArg _ (funext fun a => Fin.ext ?_)
    match a with
    | ⟨0, _⟩ => show win0_0.index t (0 : Fin 2) * 1024 + 1 * p.val = P.val; omega
    | ⟨1, _⟩ => show win0_0.index t (1 : Fin 2) * 2048 + 1 * k.val = k.val; omega
  · show V c main_v3 (((cfg0.win 1).blk t).view.emb (ix3 i q k)) = V c main_v3 (ix3 i Q k)
    refine congrArg _ (funext fun a => Fin.ext ?_)
    match a with
    | ⟨0, _⟩ => show win0_1.index t (0 : Fin 3) * 6 + 1 * i.val = i.val; omega
    | ⟨1, _⟩ => show win0_1.index t (1 : Fin 3) * 256 + 1 * q.val = Q.val; omega
    | ⟨2, _⟩ => show win0_1.index t (2 : Fin 3) * 2048 + 1 * k.val = k.val; omega

/-- An index of the array is in point `t`'s block iff each coordinate is in the block's range on its axis. -/
theorem mem_blk (t : Fin cfg0.N) (i : S8192x2048.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v4).slice (win0_2.rect t)).set ↔ _
  rw [View.set_slice_whole, Rect.mem_set_unit]
  exact Iff.rfl

/-- The blocks tile the array: the point whose block holds `(n, r)` is the one at `(n / 1024, r / 256)`. -/
theorem cover (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ := idx_onto ⟨(i 0).val / 1024, by omega⟩ ⟨(i 1).val / 256, by omega⟩
  have q0 : win0_2.index t (0 : Fin 2) = (i 0).val / 1024 := congrFun ht 0
  have q1 : win0_2.index t (1 : Fin 2) = (i 1).val / 256 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

/-- THE ARRAY after the region: `G`. -/
theorem final (c : Dev nD) : (dat0 V c).arrAt 2 cfg0.N = G V c :=
  (dat0 V c).arrAt_eq_of_cover 2 (G V c) (fun t _ => flushed_eq V c t) cover

end Cert.KernelIdeal.Region0

end
-- ==== Proof.Body1.lean ====
/-
  What one grid point of the second pallas_call leaves in its output block.

  The body reads a [512, 2048] block of the first stage's result, a [512, 2048] block of the projection matrix and a
  [1, 512] block of the bias row, multiplies "row against row" and adds the bias row to every row. So the block stored
  is `Spec.second` of the three input blocks.
-/
import proofs.«132809_j32882269618787_2_alg».proof.Proof.Gen.KernelIdeal.Frame
import proofs.«132809_j32882269618787_2_alg».proof.Proof.Spec
import proofs.«132809_j32882269618787_2_alg».proof.Proof.LibMatmulNT
import Idealize.ShloMosaic.Lib.Pipeline.Value
import Idealize.ShloMosaic.Lib.ValueLayout

noncomputable section

namespace Cert.KernelIdeal.Body1

open Cert.KernelIdeal Cert.KernelIdeal.Gen Idealize.ShloMosaic Idealize.ShloMosaic.ValueIdx

theorem hz2 : (![0, 0] : Fin 2 → Nat) = fun _ => 0 := funext fun a => by fin_cases a <;> rfl

/-- The body's product at `(p, q)`: row `p` of the left block against row `q` of the right block. -/
theorem product_apply (x0 x1 : FVec Ideal S512x2048 .bf16) (p q : Fin 512) :
    matmul dot_S512x2048_S512x2048_S512x512_1_1_0_0_n_n none x0 x1 (constant S512x512 .f32 0x00000000#32) (ix2 p q)
      = ∑ k : Fin 2048, x0 (ix2 p k) * x1 (ix2 q k) :=
  Cert.LibMatmulNT.matmul_nt_apply dot_S512x2048_S512x2048_S512x512_1_1_0_0_n_n rfl rfl rfl rfl rfl rfl none x0 x1 p q

/-- The payload at `(p, q)`: the product plus the bias row's entry `q`. -/
theorem pay_apply (x0 x1 : FVec Ideal S512x2048 .bf16) (x2 : FVec Ideal S1x512 .f32) (p q : Fin 512) :
    k1_pay1 (F := Ideal) x0 x1 x2 (ix2 p q) = (∑ k : Fin 2048, x0 (ix2 p k) * x1 (ix2 q k)) + x2 (ix2 (0 : Fin 1) q) := by
  unfold k1_pay1
  simp only [shapeCast_self, addf_apply, product_apply, broadcastTo_1b_ab_apply]

/-- THE BLOCK STORED: `Spec.second` of the three input blocks. -/
theorem out_eq (x0 x1 : Vec Ideal S512x2048 .bf16) (x2 : Vec Ideal S1x512 .f32) :
    out1_3 x0 x1 x2 = Spec.second x0 x1 x2 := by
  funext y
  obtain ⟨p, q, rfl⟩ : ∃ (p : Fin 512) (q : Fin 512), y = ix2 p q := ⟨y 0, y 1, eq_ix2 y⟩
  unfold out1_3
  rw [View.canon_unit_zero hz2, View.ld_unit_zero (S := S512x2048) hz2, View.ld_unit_zero (S := S512x2048) hz2,
    View.ld_unit_zero (S := S1x512) hz2, pay_apply, Spec.second_apply]

end Cert.KernelIdeal.Body1

end
-- ==== Proof.Region1.lean ====
/-
  The second pallas_call's result array, as one function of the arrays it finds.

  Grid point `t = (i, j)` (16 × 4 points) reads rows `512 i …` of the left operand, rows `512 j …` of the projection
  matrix and columns `512 j …` of the bias row, and writes block `(i, j)` of the result. A block of `Spec.second` depends
  only on those rows and columns, so every block written is the matching block of `Spec.second` of the WHOLE arrays, and
  the 64 blocks tile the [8192, 2048] result.
-/
import proofs.«132809_j32882269618787_2_alg».proof.Proof.Body1

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The result array the region leaves: `Spec.second` of the three arrays as the region finds them. -/
def G (c : Dev nD) : S8192x2048.Idx → EReal :=
  Spec.second (V c main_v4 : S8192x2048.Idx → EReal) (V c main_v5 : S2048x2048.Idx → EReal) (V c main_v6 : S1x2048.Idx → EReal)

/-- The index maps over the grid: the left operand's row block is the result's, the projection's row block and the
    bias's column block are the result's column block, every other block index is zero. -/
theorem idx_facts : ∀ t : Fin cfg1.N,
    win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2) :=
  (by decide +kernel : ∀ t : Fin grid1.N, _)

/-- Every block of the result is some point's. -/
theorem idx_onto : ∀ (q0 : Fin 16) (q1 : Fin 4), ∃ t : Fin cfg1.N, win1_3.index t = ![q0.val, q1.val] :=
  (by decide +kernel : ∀ (q0 : Fin 16) (q1 : Fin 4), ∃ t : Fin grid1.N, win1_3.index t = ![q0.val, q1.val])

/-- WHAT POINT `t` WRITES BACK is block `t` of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3, Body1.out_eq]
  obtain ⟨e0, e1, e2, e3, e4, e5⟩ := idx_facts t
  funext y
  obtain ⟨p, q, rfl⟩ : ∃ (p : Fin 512) (q : Fin 512), y = ix2 p q := ⟨y 0, y 1, eq_ix2 y⟩
  obtain ⟨P, Q, hPQ⟩ : ∃ (P : Fin 8192) (Q : Fin 2048), ((cfg1.win 3).blk t).view.emb (ix2 p q) = ix2 P Q := ⟨_, _, eq_ix2 _⟩
  have hP : win1_3.index t (0 : Fin 2) * 512 + 1 * p.val = P.val := congrArg (fun i : S8192x2048.Idx => (i 0).val) hPQ
  have hQ : win1_3.index t (1 : Fin 2) * 512 + 1 * q.val = Q.val := congrArg (fun i : S8192x2048.Idx => (i 1).val) hPQ
  show Spec.second (iblk1 V c 0 t) (iblk1 V c 1 t) (iblk1 V c 2 t) (ix2 p q) = G V c (((cfg1.win 3).blk t).view.emb (ix2 p q))
  rw [hPQ]
  unfold G
  refine Spec.second_congr _ _ _ _ _ _ p q P Q (fun k => ?_) (fun k => ?_) ?_
  · show V c main_v4 (((cfg1.win 0).blk t).view.emb (ix2 p k)) = V c main_v4 (ix2 P k)
    refine congrArg _ (funext fun a => Fin.ext ?_)
    match a with
    | ⟨0, _⟩ => show win1_0.index t (0 : Fin 2) * 512 + 1 * p.val = P.val; omega
    | ⟨1, _⟩ => show win1_0.index t (1 : Fin 2) * 2048 + 1 * k.val = k.val; omega
  · show V c main_v5 (((cfg1.win 1).blk t).view.emb (ix2 q k)) = V c main_v5 (ix2 Q k)
    refine congrArg _ (funext fun a => Fin.ext ?_)
    match a with
    | ⟨0, _⟩ => show win1_1.index t (0 : Fin 2) * 512 + 1 * q.val = Q.val; omega
    | ⟨1, _⟩ => show win1_1.index t (1 : Fin 2) * 2048 + 1 * k.val = k.val; omega
  · show V c main_v6 (((cfg1.win 2).blk t).view.emb (ix2 (0 : Fin 1) q)) = V c main_v6 (ix2 (0 : Fin 1) Q)
    refine congrArg _ (funext fun a => Fin.ext ?_)
    match a with
    | ⟨0, _⟩ => show win1_2.index t (0 : Fin 2) * 1 + 1 * 0 = 0; omega
    | ⟨1, _⟩ => show win1_2.index t (1 : Fin 2) * 512 + 1 * q.val = Q.val; omega

/-- An index of the array is in point `t`'s block iff each coordinate is in the block's range on its axis. -/
theorem mem_blk (t : Fin cfg1.N) (i : S8192x2048.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v7).slice (win1_3.rect t)).set ↔ _
  rw [View.set_slice_whole, Rect.mem_set_unit]
  exact Iff.rfl

/-- The blocks tile the array: the point whose block holds `(n, o)` is the one at `(n / 512, o / 512)`. -/
theorem cover (i : S8192x2048.Idx) : ∃ t : Fin cfg1.N, (cfg1.win 3).flush t = true ∧ i ∈ ((cfg1.win 3).blk t).view.set := by
  have hi0 : (i 0).val < 8192 := (i 0).isLt
  have hi1 : (i 1).val < 2048 := (i 1).isLt
  obtain ⟨t, ht⟩ := idx_onto ⟨(i 0).val / 512, by omega⟩ ⟨(i 1).val / 512, by omega⟩
  have q0 : win1_3.index t (0 : Fin 2) = (i 0).val / 512 := congrFun ht 0
  have q1 : win1_3.index t (1 : Fin 2) = (i 1).val / 512 := congrFun ht 1
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-- THE ARRAY after the region: `G`. -/
theorem final (c : Dev nD) : (dat1 V c).arrAt 3 cfg1.N = G V c :=
  (dat1 V c).arrAt_eq_of_cover 3 (G V c) (fun t _ => flushed_eq V c t) cover

end Cert.KernelIdeal.Region1

end
-- ==== Proof.RunAll.lean ====
/-
  The kernel program's run, with every buffer named.

  @main is five segments: host operations, the first pallas_call, host operations, the second pallas_call, one last host
  operation. The contents of the TensorCore's unscoped buffers at the boundaries are a fold through the segments
  (`Gen.W0` … `Gen.W5`: a stretch of host operations applies them; a pallas_call leaves its arrays at what the pipeline's
  write-backs leave and every other buffer as it was). Every weakly fair execution terminates, nothing faulting, with EVERY
  unscoped buffer — the result among them — at the last boundary's contents `Gen.W5`.
-/
import proofs.«132809_j32882269618787_2_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each unscoped buffer of the TensorCore at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

end Cert.KernelIdeal.RunAll

end
-- ==== Proof.KValue.lean ====
/-
  The kernel program's result, as one function of the arguments.

  Through @main: the input is flattened to [8192, 2048] and `masks · U` formed (both then rounded to bf16: no change on
  the extended reals); the first pallas_call leaves `Spec.first` of those two arrays; the projection matrix is rounded
  and the bias reshaped to one row; the second pallas_call leaves `Spec.second` of the first result, the projection
  matrix and the bias row; the last operation reshapes to [4, 2048, 2048]. Each boundary's contents are read off the
  fold `Gen.W0 … Gen.W5`, and the run is the run with every buffer named, read at the result and at the arguments.
-/
import proofs.«132809_j32882269618787_2_alg».proof.Proof.Region0
import proofs.«132809_j32882269618787_2_alg».proof.Proof.Region1
import proofs.«132809_j32882269618787_2_alg».proof.Proof.RunAll
import Idealize.ShloMosaic.Lib.StableHlo.Run
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.ShloMosaic.ValueIdx
open Idealize.ShloMosaic.StableHlo
open Idealize.SL.Sem

variable (m : (ℓ : Loc nD τ sig) → Buf (Elt Ideal) ℓ) (ρ : Dev nD → PrngReg)

/-- The result as a function of the five argument arrays. -/
def value (x0 : S4x2048x2048.Idx → EReal) (x1 x2 : S6x2048x2048.Idx → EReal) (x3 : S2048x2048.Idx → EReal)
    (x4 : S2048.Idx → EReal) : S4x2048x2048.Idx → EReal :=
  shapeCast S4x2048x2048 (Spec.second (Spec.first (shapeCast S8192x2048 x0 shapeCasts_S4x2048x2048_S8192x2048)
    (mulf x2 x1 : FVec Ideal S6x2048x2048 .f32)) x3 (Spec.asRow x4)) shapeCasts_S8192x2048_S4x2048x2048

/-! ## What the first pallas_call finds -/

theorem entry0_input (c : Dev nD) : (V1 m ρ c main_v1 : S8192x2048.Idx → EReal)
    = shapeCast S8192x2048 (m ((c.tc : Thread nD τ).loc main_arg0)) shapeCasts_S4x2048x2048_S8192x2048 := by
  show StableHlo.after hostOps0 (W0 m ρ c) (Proc.devRef .tc main_v1) = _
  after_results
  rfl

theorem entry0_factors (c : Dev nD) : (V1 m ρ c main_v3 : S6x2048x2048.Idx → EReal)
    = (mulf (m ((c.tc : Thread nD τ).loc main_arg2)) (m ((c.tc : Thread nD τ).loc main_arg1)) : FVec Ideal S6x2048x2048 .f32) := by
  show StableHlo.after hostOps0 (W0 m ρ c) (Proc.devRef .tc main_v3) = _
  after_results
  rfl

/-! ## What the second pallas_call finds -/

theorem entry1_left (c : Dev nD) : (V3 m ρ c main_v4 : S8192x2048.Idx → EReal) = Region0.G (V1 m ρ) c := by
  show StableHlo.after hostOps1 (W2 m ρ c) (Proc.devRef .tc main_v4) = _
  after_results
  exact (W2_arr m ρ c 2).trans (Region0.final (V1 m ρ) c)

theorem entry1_proj (c : Dev nD) : (V3 m ρ c main_v5 : S2048x2048.Idx → EReal) = m ((c.tc : Thread nD τ).loc main_arg3) := by
  show StableHlo.after hostOps1 (W2 m ρ c) (Proc.devRef .tc main_v5) = _
  after_results
  rw [W2_of_ne m ρ c main_arg3 (by decide)]
  have e : W1 m ρ c (Proc.devRef .tc main_arg3) = m ((c.tc : Thread nD τ).loc main_arg3) := by
    show StableHlo.after hostOps0 (W0 m ρ c) (Proc.devRef .tc main_arg3) = _
    after_results <;> rfl
  rw [e]
  rfl

theorem entry1_bias (c : Dev nD) : (V3 m ρ c main_v6 : S1x2048.Idx → EReal) = Spec.asRow (m ((c.tc : Thread nD τ).loc main_arg4)) := by
  show StableHlo.after hostOps1 (W2 m ρ c) (Proc.devRef .tc main_v6) = _
  after_results
  rw [W2_of_ne m ρ c main_arg4 (by decide)]
  have e : W1 m ρ c (Proc.devRef .tc main_arg4) = m ((c.tc : Thread nD τ).loc main_arg4) := by
    show StableHlo.after hostOps0 (W0 m ρ c) (Proc.devRef .tc main_arg4) = _
    after_results <;> rfl
  rw [e]
  funext j
  obtain ⟨u, o, rfl⟩ : ∃ (u : Fin 1) (o : Fin 2048), j = ix2 u o := ⟨j 0, j 1, eq_ix2 j⟩
  exact shapeCast_a_1a_apply (m ((c.tc : Thread nD τ).loc main_arg4)) shapeCasts_S2048_S1x2048 u o

/-! ## The result -/

/-- THE RESULT BUFFER at the last boundary: `value` of the arguments. -/
theorem result_eq (c : Dev nD) : (W5 m ρ c (Proc.devRef .tc main_v8) : S4x2048x2048.Idx → EReal)
    = value (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  have h7 : (W4 m ρ c (Proc.devRef .tc main_v7) : S8192x2048.Idx → EReal) = Region1.G (V3 m ρ) c :=
    (W4_arr m ρ c 3).trans (Region1.final (V3 m ρ) c)
  show StableHlo.after hostOps2 (W4 m ρ c) (Proc.devRef .tc main_v8) = _
  after_results
  rw [h7]
  unfold Region1.G
  rw [entry1_left, entry1_proj, entry1_bias]
  unfold Region0.G
  rw [entry0_input, entry0_factors]
  rfl

/-- THE RUN: every execution ends with the result at `value` of the arguments and the arguments unchanged. -/
theorem run : θ_run defs (onTc (τ := τ) (main (F := Ideal))) ⟨m, fun _ => 0, ρ⟩ (fun r => ∀ c : Dev nD,
      r.2.mem ((c.tc : Thread nD τ).loc main_v8) = value (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c main_v8 (by decide)).trans (result_eq m ρ c),
       (h c main_arg0 (by decide)).trans (W5_main_arg0 m ρ c),
       (h c main_arg1 (by decide)).trans (W5_main_arg1 m ρ c),
       (h c main_arg2 (by decide)).trans (W5_main_arg2 m ρ c),
       (h c main_arg3 (by decide)).trans (W5_main_arg3 m ρ c),
       (h c main_arg4 (by decide)).trans (W5_main_arg4 m ρ c)⟩)
    (RunAll.run_all m ρ)

end Cert.KernelIdeal.KValue

end
-- ==== Proof.RefValue.lean ====
/-
  The reference program's result, as the same function of the arguments.

  The reference slices factor `i` out of `masks · U`, drops the unit axis, transposes it and contracts the flattened
  input's columns against the transposed factor's rows: at `(n, r)` that is row `n` of the input against row `r` of the
  factor. The chain `a · c + c` is written out five times; the projection is the same product against the transposed
  projection matrix, and the bias is broadcast to every row. Read index by index, the value before the last reshape is
  `Spec.second (Spec.first …)`.
-/
import proofs.«132809_j32882269618787_2_alg».proof.Proof.Gen.ReferenceIdeal.Read
import proofs.«132809_j32882269618787_2_alg».proof.Proof.Spec
import Idealize.ShloMosaic.Lib.ValueLayout

noncomputable section

namespace Cert.ReferenceIdeal.RefValue

open Cert.ReferenceIdeal Cert.ReferenceIdeal.Gen Cert.ReferenceIdeal.Read Idealize.ShloMosaic Idealize.ShloMosaic.ValueIdx

/-- A factor as the reference reads it: the slab at offset `(i, 0, 0)`, its unit axis dropped, transposed; at
    `(k, r)` that is the stacked array at `(i, r, k)`. -/
theorem factor_read (y : S6x2048x2048.Idx → EReal) (i : Fin 6) (off : Fin 3 → Nat) (hoff : off = ![i.val, 0, 0])
    (hs : S6x2048x2048.Slices off S1x2048x2048) (r k : Fin 2048) :
    transpose S2048x2048 [1, 0] (shapeCast S2048x2048 (extractStridedSlice S1x2048x2048 off y hs)
        shapeCasts_S1x2048x2048_S2048x2048) transposes_S2048x2048_S2048x2048_1_0 (ix2 k r) = y (ix3 i r k) := by
  subst hoff
  rw [transpose_ix2_apply, shapeCast_1ab_ab_apply]
  exact extractStridedSlice_apply _ y hs _ _ (fun a => match a with
    | ⟨0, _⟩ => by show i.val = i.val + 0; omega
    | ⟨1, _⟩ => by show r.val = 0 + r.val; omega
    | ⟨2, _⟩ => by show k.val = 0 + k.val; omega)

/-- The left operand of a contraction at `(n, r)`, `k`: the input at `(n, k)`. -/
theorem lidx_eq (n : Fin 8192) (r k : Fin 2048) : lidx_main_v5 (ix2 n r) k = ix2 n k :=
  funext fun a => Fin.ext (by match a with | ⟨0, _⟩ => rfl | ⟨1, _⟩ => rfl)

/-- The right operand of a contraction at `(n, r)`, `k`: the transposed matrix at `(k, r)`. -/
theorem ridx_eq (n : Fin 8192) (r k : Fin 2048) : ridx_main_v5 (ix2 n r) k = ix2 k r :=
  funext fun a => Fin.ext (by match a with | ⟨0, _⟩ => rfl | ⟨1, _⟩ => rfl)

/-- A contraction of the flattened input `y0` against factor `i` of the stacked array `y1`, as the reference spells it
    (sum over `k` of the left operand at the contraction's left index times the sliced, reshaped, transposed factor at
    its right index), is at `(n, r)` row `n` of the input against row `r` of the factor. -/
theorem prod_of (y0 : S8192x2048.Idx → EReal) (y1 : S6x2048x2048.Idx → EReal) (i : Fin 6) (off : Fin 3 → Nat)
    (hoff : off = ![i.val, 0, 0]) (hs : S6x2048x2048.Slices off S1x2048x2048) (n : Fin 8192) (r : Fin 2048) (d : EReal)
    (hd : d = ∑ k : Fin 2048, y0 (lidx_main_v5 (ix2 n r) k)
      * transpose S2048x2048 [1, 0] (shapeCast S2048x2048 (extractStridedSlice S1x2048x2048 off y1 hs)
          shapeCasts_S1x2048x2048_S2048x2048) transposes_S2048x2048_S2048x2048_1_0 (ridx_main_v5 (ix2 n r) k)) :
    d = ∑ k : Fin 2048, y0 (ix2 n k) * y1 (ix3 i r k) := by
  rw [hd]
  refine Finset.sum_congr rfl fun k _ => ?_
  rw [lidx_eq n r k, ridx_eq n r k, factor_read y1 i off hoff hs r k]

section Products

variable (x0 : (⟨S4x2048x2048, .f32⟩ : BufTy).Contents (Elt Ideal)) (x1 x2 : (⟨S6x2048x2048, .f32⟩ : BufTy).Contents (Elt Ideal))
  (n : Fin 8192) (r : Fin 2048)

/-- The six products of the reference, each row `n` of the flattened input against row `r` of its factor. -/
theorem prod0 : val_main_v5 (F := Ideal) x0 x1 x2 (ix2 n r)
    = ∑ k : Fin 2048, val_main_v0 (F := Ideal) x0 (ix2 n k) * val_main_v1 (F := Ideal) x1 x2 (ix3 (0 : Fin 6) r k) :=
  prod_of _ _ 0 ![0, 0, 0] rfl slices_S6x2048x2048_S1x2048x2048_0_0_0 n r _ (val_main_v5_apply x0 x1 x2 (ix2 n r))
theorem prod1 : val_main_v9 (F := Ideal) x0 x1 x2 (ix2 n r)
    = ∑ k : Fin 2048, val_main_v0 (F := Ideal) x0 (ix2 n k) * val_main_v1 (F := Ideal) x1 x2 (ix3 (1 : Fin 6) r k) :=
  prod_of _ _ 1 ![1, 0, 0] rfl slices_S6x2048x2048_S1x2048x2048_1_0_0 n r _ (val_main_v9_apply x0 x1 x2 (ix2 n r))
theorem prod2 : val_main_v15 (F := Ideal) x0 x1 x2 (ix2 n r)
    = ∑ k : Fin 2048, val_main_v0 (F := Ideal) x0 (ix2 n k) * val_main_v1 (F := Ideal) x1 x2 (ix3 (2 : Fin 6) r k) :=
  prod_of _ _ 2 ![2, 0, 0] rfl slices_S6x2048x2048_S1x2048x2048_2_0_0 n r _ (val_main_v15_apply x0 x1 x2 (ix2 n r))
theorem prod3 : val_main_v21 (F := Ideal) x0 x1 x2 (ix2 n r)
    = ∑ k : Fin 2048, val_main_v0 (F := Ideal) x0 (ix2 n k) * val_main_v1 (F := Ideal) x1 x2 (ix3 (3 : Fin 6) r k) :=
  prod_of _ _ 3 ![3, 0, 0] rfl slices_S6x2048x2048_S1x2048x2048_3_0_0 n r _ (val_main_v21_apply x0 x1 x2 (ix2 n r))
theorem prod4 : val_main_v27 (F := Ideal) x0 x1 x2 (ix2 n r)
    = ∑ k : Fin 2048, val_main_v0 (F := Ideal) x0 (ix2 n k) * val_main_v1 (F := Ideal) x1 x2 (ix3 (4 : Fin 6) r k) :=
  prod_of _ _ 4 ![4, 0, 0] rfl slices_S6x2048x2048_S1x2048x2048_4_0_0 n r _ (val_main_v27_apply x0 x1 x2 (ix2 n r))
theorem prod5 : val_main_v33 (F := Ideal) x0 x1 x2 (ix2 n r)
    = ∑ k : Fin 2048, val_main_v0 (F := Ideal) x0 (ix2 n k) * val_main_v1 (F := Ideal) x1 x2 (ix3 (5 : Fin 6) r k) :=
  prod_of _ _ 5 ![5, 0, 0] rfl slices_S6x2048x2048_S1x2048x2048_5_0_0 n r _ (val_main_v33_apply x0 x1 x2 (ix2 n r))

end Products

/-- The chain, as the reference writes it out, is `Spec.first`. -/
theorem chain_eq (x0 : (⟨S4x2048x2048, .f32⟩ : BufTy).Contents (Elt Ideal)) (x1 x2 : (⟨S6x2048x2048, .f32⟩ : BufTy).Contents (Elt Ideal)) :
    val_main_v35 (F := Ideal) x0 x1 x2 = Spec.first (val_main_v0 (F := Ideal) x0) (val_main_v1 (F := Ideal) x1 x2) := by
  funext j
  obtain ⟨n, r, rfl⟩ : ∃ (n : Fin 8192) (r : Fin 2048), j = ix2 n r := ⟨j 0, j 1, eq_ix2 j⟩
  have h35 : val_main_v35 (F := Ideal) x0 x1 x2 (ix2 n r) = Spec.link (val_main_v33 (F := Ideal) x0 x1 x2 (ix2 n r)) (val_main_v29 (F := Ideal) x0 x1 x2 (ix2 n r)) := rfl
  have h29 : val_main_v29 (F := Ideal) x0 x1 x2 (ix2 n r) = Spec.link (val_main_v27 (F := Ideal) x0 x1 x2 (ix2 n r)) (val_main_v23 (F := Ideal) x0 x1 x2 (ix2 n r)) := rfl
  have h23 : val_main_v23 (F := Ideal) x0 x1 x2 (ix2 n r) = Spec.link (val_main_v21 (F := Ideal) x0 x1 x2 (ix2 n r)) (val_main_v17 (F := Ideal) x0 x1 x2 (ix2 n r)) := rfl
  have h17 : val_main_v17 (F := Ideal) x0 x1 x2 (ix2 n r) = Spec.link (val_main_v15 (F := Ideal) x0 x1 x2 (ix2 n r)) (val_main_v11 (F := Ideal) x0 x1 x2 (ix2 n r)) := rfl
  have h11 : val_main_v11 (F := Ideal) x0 x1 x2 (ix2 n r) = Spec.link (val_main_v9 (F := Ideal) x0 x1 x2 (ix2 n r)) (val_main_v5 (F := Ideal) x0 x1 x2 (ix2 n r)) := rfl
  rw [h35, h29, h23, h17, h11, prod5, prod4, prod3, prod2, prod1, prod0]
  rfl

/-- The projection with its bias, as the reference computes it, is `Spec.second`. -/
theorem proj_eq (x0 : (⟨S4x2048x2048, .f32⟩ : BufTy).Contents (Elt Ideal)) (x1 x2 : (⟨S6x2048x2048, .f32⟩ : BufTy).Contents (Elt Ideal))
    (x3 : (⟨S2048x2048, .f32⟩ : BufTy).Contents (Elt Ideal)) (x4 : (⟨S2048, .f32⟩ : BufTy).Contents (Elt Ideal)) :
    val_main_v40 (F := Ideal) x0 x1 x2 x3 x4
      = Spec.second (Spec.first (val_main_v0 (F := Ideal) x0) (val_main_v1 (F := Ideal) x1 x2)) x3 (Spec.asRow x4) := by
  rw [← chain_eq]
  funext j
  obtain ⟨n, o, rfl⟩ : ∃ (n : Fin 8192) (o : Fin 2048), j = ix2 n o := ⟨j 0, j 1, eq_ix2 j⟩
  have h40 : val_main_v40 (F := Ideal) x0 x1 x2 x3 x4 (ix2 n o)
      = val_main_v37 (F := Ideal) x0 x1 x2 x3 (ix2 n o) + val_main_v39 (F := Ideal) x4 (ix2 n o) := rfl
  rw [h40, Spec.second_apply, val_main_v37_apply, val_main_v39_apply, val_main_v38_apply]
  refine congrArg₂ (· + ·) (Finset.sum_congr rfl fun k _ => ?_) ?_
  · rw [val_main_v36_apply, show lidx_main_v37 (ix2 n o) k = ix2 n k from lidx_eq n o k]
    refine congrArg _ (congrArg x3 (funext fun a => Fin.ext ?_))
    match a with
    | ⟨0, _⟩ => rfl
    | ⟨1, _⟩ => rfl
  · exact congrArg x4 (funext fun a => Fin.ext (by match a with | ⟨0, _⟩ => rfl))

/-- THE REFERENCE'S RESULT: the last reshape of `Spec.second (Spec.first …)`. -/
theorem result_eq (x0 : (⟨S4x2048x2048, .f32⟩ : BufTy).Contents (Elt Ideal)) (x1 x2 : (⟨S6x2048x2048, .f32⟩ : BufTy).Contents (Elt Ideal))
    (x3 : (⟨S2048x2048, .f32⟩ : BufTy).Contents (Elt Ideal)) (x4 : (⟨S2048, .f32⟩ : BufTy).Contents (Elt Ideal)) :
    val_main_v41 (F := Ideal) x0 x1 x2 x3 x4
      = shapeCast S4x2048x2048 (Spec.second (Spec.first (shapeCast S8192x2048 x0 shapeCasts_S4x2048x2048_S8192x2048)
          (mulf x2 x1 : FVec Ideal S6x2048x2048 .f32)) x3 (Spec.asRow x4)) shapeCasts_S8192x2048_S4x2048x2048 := by
  unfold val_main_v41
  rw [proj_eq]
  rfl

end Cert.ReferenceIdeal.RefValue

end
-- ==== Proof.lean ====
/-
  The kernel (two pallas_calls: six chained row-against-row products of the flattened input with the masked factors,
  then a projection with a bias) against its jnp reference, equal on the extended reals.

  Both programs compute, with `Z` the input flattened to [8192, 2048] and `W = masks · U`,

    a i (n, r) = Σ_k Z[n, k] · W[i, r, k],   c 0 = a 0,   c i = a i · c (i-1) + c (i-1)   (i = 1 … 5),
    x (n, o)   = Σ_r c 5 (n, r) · C_w[o, r] + C_b[o],

  reshaped to [4, 2048, 2048] (`Spec.first`, `Spec.second`). The kernel rounds its operands and its intermediate result
  to bf16, which changes nothing on the extended reals, tiles the first stage in 1024 × 256 blocks and the second in
  512 × 512 blocks, and contracts against the rows of each factor where the reference contracts against the columns of
  its transpose: the same finite sums, term by term, so no law of arithmetic is needed and the inputs' finiteness is
  never used. The idealization rewrote nothing, so `preserves` is trivial; the three frames are the generated ones (the
  reference's its generated run with the result dropped).
-/
import proofs.«132809_j32882269618787_2_alg».proof.Defs
import proofs.«132809_j32882269618787_2_alg».proof.Proof.Gen.Kernel
import proofs.«132809_j32882269618787_2_alg».proof.Proof.Gen.Kernel.Frame
import proofs.«132809_j32882269618787_2_alg».proof.Proof.Gen.KernelIdeal
import proofs.«132809_j32882269618787_2_alg».proof.Proof.Gen.KernelIdeal.Frame
import proofs.«132809_j32882269618787_2_alg».proof.Proof.Gen.ReferenceIdeal
import proofs.«132809_j32882269618787_2_alg».proof.Proof.Gen.Pre_finite_inputs
import proofs.«132809_j32882269618787_2_alg».proof.Proof.Gen.ReferenceIdeal.Run
import proofs.«132809_j32882269618787_2_alg».proof.Proof.Gen.ReferenceIdeal.Read
import proofs.«132809_j32882269618787_2_alg».proof.Proof.KValue
import proofs.«132809_j32882269618787_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the same function of arguments that agree. -/
theorem algebraic : Cert.algebraic_KernelIdeal_ReferenceIdeal := by
  intro m ρ m' ρ' _ hagree
  refine ⟨fun c => Cert.KernelIdeal.KValue.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v41_eq, Cert.ReferenceIdeal.RefValue.result_eq, a0, a1, a2, a3, a4]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
